-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x16 : Shape := ⟨2, ![256, 16]⟩
abbrev S16 : Shape := ⟨1, ![16]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S256x16 .f32) (main_arg5 : FVec F S16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x16 .f32 := Host.absf main_arg4
  let main_cst_6 : FVec F S_ .f32 := constant S_ .f32 0x7F800000#32
  let main_v20 : FVec F S256x16 .f32 := broadcastInDim S256x16 ![] bcast_S_S256x16 main_cst_6
  let main_v21 : IVec S256x16 1 := cmpf .olt main_v19 main_v20
  let main_c_7 : IVec S_ 1 := constantI S_ 1 1#1
  let main_v22 : IVec S_ 1 := (fun x v => Host.reduce IntOp.andi x v reducesTo_S256x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x256 .f32) (main_arg3 : FVec F S256 .f32) (main_arg4 : FVec F S256x16 .f32) (main_arg5 : FVec F S16 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x16 : Shape := ⟨2, ![256, 16]⟩
abbrev S16 : Shape := ⟨1, ![16]⟩
abbrev S1x256 : Shape := ⟨2, ![1, 256]⟩
abbrev S1x16 : Shape := ⟨2, ![1, 16]⟩
abbrev S10000x16 : Shape := ⟨2, ![10000, 16]⟩
abbrev S400x10000 : Shape := ⟨2, ![400, 10000]⟩
abbrev S400x16 : Shape := ⟨2, ![400, 16]⟩
abbrev S400x256 : Shape := ⟨2, ![400, 256]⟩

abbrev nBuf : Space → Nat
  | .hbm => 9
  | .vmem => 10
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x16, .f32⟩
  | .hbm, ⟨5, _⟩ => ⟨S16, .f32⟩
  | .hbm, ⟨6, _⟩ => ⟨S1x256, .f32⟩
  | .hbm, ⟨7, _⟩ => ⟨S1x16, .f32⟩
  | .hbm, ⟨8, _⟩ => ⟨S10000x16, .f32⟩
  | .local _ .vmem, ⟨0, _⟩ => ⟨S10000x256, .f32⟩
  | .local _ .vmem, ⟨1, _⟩ => ⟨S256x256, .f32⟩
  | .local _ .vmem, ⟨2, _⟩ => ⟨S256x16, .f32⟩
  | .local _ .vmem, ⟨3, _⟩ => ⟨S1x256, .f32⟩
  | .local _ .vmem, ⟨4, _⟩ => ⟨S1x16, .f32⟩
  | .local _ .vmem, ⟨5, _⟩ => ⟨S400x10000, .f32⟩
  | .local _ .vmem, ⟨6, _⟩ => ⟨S400x10000, .f32⟩
  | .local _ .vmem, ⟨7, _⟩ => ⟨S400x16, .f32⟩
  | .local _ .vmem, ⟨8, _⟩ => ⟨S400x16, .f32⟩
  | .local _ .vmem, ⟨9, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256_S1x256 : S256.ShapeCasts S1x256
  shapeCasts_S16_S1x16 : S16.ShapeCasts S1x16
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S400x16_S400x16_0_0 : ∀ a, (![0, 0] : Fin 2 → Nat) a + S400x16.size a ≤ S400x16.size a
  h_S400x16 : 0 < S400x16.numel
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  dot_S400x256_S256x16_S400x16_1_0_0_1_n_n_wf : DotDims.WF S400x256 S256x16 S400x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .f32 = 32 ∨ (Rect.block (s := S10000x10000) S400x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x16.size a ≤ S10000x16.size a
  hwx0_6 : ∀ i : grid0.Coords, EltTy.bits .f32 = 32 ∨ (Rect.block (s := S10000x16) S400x16.size (cc0_transform_6 i) (hinb0_6 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S400x256_S256x16_S400x16_1_0_0_1_n_n : DotDims S400x256 S256x16 S400x16 where
  lhsContracting := [1]
  rhsContracting := [0]
  lhsNonContracting := [0]
  rhsNonContracting := [1]
  lhsBatch := []
  rhsBatch := []
  wf := dot_S400x256_S256x16_S400x16_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S400x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x16 : Shape := ⟨2, ![256, 16]⟩
abbrev S16 : Shape := ⟨1, ![16]⟩
abbrev S1x256 : Shape := ⟨2, ![1, 256]⟩
abbrev S_ : Shape := ⟨0, ![]⟩
abbrev S10000x16 : Shape := ⟨2, ![10000, 16]⟩
abbrev S1x16 : Shape := ⟨2, ![1, 16]⟩

abbrev nBuf : Space → Nat
  | .hbm => 30
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x16, .f32⟩
  | .hbm, ⟨5, _⟩ => ⟨S16, .f32⟩
  | .hbm, ⟨6, _⟩ => ⟨S10000x256, .f32⟩
  | .hbm, ⟨7, _⟩ => ⟨S10000x256, .f32⟩
  | .hbm, ⟨8, _⟩ => ⟨S1x256, .f32⟩
  | .hbm, ⟨9, _⟩ => ⟨S10000x256, .f32⟩
  | .hbm, ⟨10, _⟩ => ⟨S10000x256, .f32⟩
  | .hbm, ⟨11, _⟩ => ⟨S_, .f32⟩
  | .hbm, ⟨12, _⟩ => ⟨S10000x256, .f32⟩
  | .hbm, ⟨13, _⟩ => ⟨S10000x256, .i1⟩
  | .hbm, ⟨14, _⟩ => ⟨S_, .f32⟩
  | .hbm, ⟨15, _⟩ => ⟨S10000x256, .f32⟩
  | .hbm, ⟨16, _⟩ => ⟨S10000x256, .i1⟩
  | .hbm, ⟨17, _⟩ => ⟨S_, .f32⟩
  | .hbm, ⟨18, _⟩ => ⟨S_, .f32⟩
  | .hbm, ⟨19, _⟩ => ⟨S10000x256, .f32⟩
  | .hbm, ⟨20, _⟩ => ⟨S10000x256, .f32⟩
  | .hbm, ⟨21, _⟩ => ⟨S10000x256, .f32⟩
  | .hbm, ⟨22, _⟩ => ⟨S_, .f32⟩
  | .hbm, ⟨23, _⟩ => ⟨S10000x256, .f32⟩
  | .hbm, ⟨24, _⟩ => ⟨S10000x256, .f32⟩
  | .hbm, ⟨25, _⟩ => ⟨S10000x256, .f32⟩
  | .hbm, ⟨26, _⟩ => ⟨S10000x16, .f32⟩
  | .hbm, ⟨27, _⟩ => ⟨S1x16, .f32⟩
  | .hbm, ⟨28, _⟩ => ⟨S10000x16, .f32⟩
  | .hbm, ⟨29, _⟩ => ⟨S10000x16, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_cst_1 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_v4 : Ref sig .tc := ⟨.hbm, 20, rfl⟩
abbrev main_call0_v5 : Ref sig .tc := ⟨.hbm, 21, rfl⟩
abbrev main_call0_cst_2 : Ref sig .tc := ⟨.hbm, 22, rfl⟩
abbrev main_call0_v6 : Ref sig .tc := ⟨.hbm, 23, rfl⟩
abbrev main_call0_v7 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x256_S256x16_S10000x16_1_0_0_1_n_n_wf : DotDims.WF S10000x256 S256x16 S10000x16 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x16_S10000x16_1_0_0_1_n_n : DotDims S10000x256 S256x16 S10000x16 where
  lhsContracting := [1]
  rhsContracting := [0]
  lhsNonContracting := [0]
  rhsNonContracting := [1]
  lhsBatch := []
  rhsBatch := []
  wf := dot_S10000x256_S256x16_S10000x16_1_0_0_1_n_n_wf

class Facts : Prop extends Facts₀ where

variable [Facts]
-- ==== Proof.Pieces.lean ====
/-
  What each of the kernel body's two control cases leaves behind, as values.

  At the grid's first point the body copies the feature matrix (through a change of float format) into the carried
  scratch, reads it back, and stores the output block computed from the adjacency block, that copy, the weights and
  the bias rows. At every later point it stores the same function of the adjacency block and of whatever the scratch
  held, and leaves the scratch alone. Each store covers its whole buffer and each load reads a whole buffer, so what a
  buffer holds afterwards is the stored payload of the loaded contents. Stated at any float instance.
-/
import proofs.«153492_g15805479649401_cont_sun_c4_349_38_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A later point: the output block is the payload of the adjacency block, the scratch's contents, the weights and the
    bias rows. -/
theorem out_B (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S256x16 .f32) (harg3 : arg3.IsWhole) (arg4 : Memref sig .tc .vmem S1x256 .f32) (harg4 : arg4.IsWhole) (arg5 : Memref sig .tc .vmem S1x16 .f32) (harg5 : arg5.IsWhole) (arg6 : Memref sig .tc .vmem S400x10000 .f32) (harg6 : arg6.IsWhole) (arg7 : Memref sig .tc .vmem S400x16 .f32) (harg7 : arg7.IsWhole) (arg8 : Memref sig .tc .vmem S10000x256 .bf16) (harg8 : arg8.IsWhole) (hc0 : ¬cond0_0 i) (x0 : Vec F S10000x256 .f32) (x1 : Vec F S256x256 .f32) (x2 : Vec F S256x16 .f32) (x3 : Vec F S1x256 .f32) (x4 : Vec F S1x16 .f32) (x5 : Vec F S400x10000 .f32) (xs0 : Vec F S10000x256 .bf16) :
    out0_B_6 c i arg1 harg1 arg2 harg2 arg3 harg3 arg4 harg4 arg5 harg5 arg6 harg6 arg7 harg7 arg8 harg8 hc0 x0 x1 x2 x3 x4 x5 xs0 = k0_pay2 x5 xs0 x1 x3 x2 x4 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xs0)]
  unfold kernelRun0_B
  dsimp only
  rw [View.canon_unit_zero hz]
  simp only [View.readAt_eq_ld, harg1.read_unread, harg2.read_unread, harg3.read_unread, harg4.read_unread, harg5.read_unread, harg6.read_unread, harg8.read_unread, View.ld_unit_zero (S := S10000x256) hz, View.ld_unit_zero (S := S256x256) hz, View.ld_unit_zero (S := S256x16) hz, View.ld_unit_zero (S := S1x256) hz, View.ld_unit_zero (S := S1x16) hz, View.ld_unit_zero (S := S400x10000) hz, View.ld_unit_zero (S := S400x16) hz]

/-- The first point: the scratch ends at the copy of the feature matrix. -/
theorem sout_A (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S256x16 .f32) (harg3 : arg3.IsWhole) (arg4 : Memref sig .tc .vmem S1x256 .f32) (harg4 : arg4.IsWhole) (arg5 : Memref sig .tc .vmem S1x16 .f32) (harg5 : arg5.IsWhole) (arg6 : Memref sig .tc .vmem S400x10000 .f32) (harg6 : arg6.IsWhole) (arg7 : Memref sig .tc .vmem S400x16 .f32) (harg7 : arg7.IsWhole) (arg8 : Memref sig .tc .vmem S10000x256 .bf16) (harg8 : arg8.IsWhole) (hc0 : cond0_0 i) (x0 : Vec F S10000x256 .f32) (x1 : Vec F S256x256 .f32) (x2 : Vec F S256x16 .f32) (x3 : Vec F S1x256 .f32) (x4 : Vec F S1x16 .f32) (x5 : Vec F S400x10000 .f32) :
    sout0_A_0 c i arg1 harg1 arg2 harg2 arg3 harg3 arg4 harg4 arg5 harg5 arg6 harg6 arg7 harg7 arg8 harg8 hc0 x0 x1 x2 x3 x4 x5 = k0_pay1 x0 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S10000x256) hz, View.ld_unit_zero (S := S256x256) hz, View.ld_unit_zero (S := S256x16) hz, View.ld_unit_zero (S := S1x256) hz, View.ld_unit_zero (S := S1x16) hz, View.ld_unit_zero (S := S400x10000) hz, View.ld_unit_zero (S := S400x16) hz]

/-- The first point: the output block is the payload over that copy. -/
theorem out_A (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S256x16 .f32) (harg3 : arg3.IsWhole) (arg4 : Memref sig .tc .vmem S1x256 .f32) (harg4 : arg4.IsWhole) (arg5 : Memref sig .tc .vmem S1x16 .f32) (harg5 : arg5.IsWhole) (arg6 : Memref sig .tc .vmem S400x10000 .f32) (harg6 : arg6.IsWhole) (arg7 : Memref sig .tc .vmem S400x16 .f32) (harg7 : arg7.IsWhole) (arg8 : Memref sig .tc .vmem S10000x256 .bf16) (harg8 : arg8.IsWhole) (hc0 : cond0_0 i) (x0 : Vec F S10000x256 .f32) (x1 : Vec F S256x256 .f32) (x2 : Vec F S256x16 .f32) (x3 : Vec F S1x256 .f32) (x4 : Vec F S1x16 .f32) (x5 : Vec F S400x10000 .f32) :
    out0_A_6 c i arg1 harg1 arg2 harg2 arg3 harg3 arg4 harg4 arg5 harg5 arg6 harg6 arg7 harg7 arg8 harg8 hc0 x0 x1 x2 x3 x4 x5 = k0_pay2 x5 (k0_pay1 x0) x1 x3 x2 x4 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_unit_zero hz, View.readCov_unit_zero (S := S10000x256) _ hz]
  simp only [View.readAt_eq_ld, harg1.read_unread, harg2.read_unread, harg3.read_unread, harg4.read_unread, harg5.read_unread, harg6.read_unread, harg8.read_unread, View.ld_unit_zero (S := S10000x256) hz, View.ld_unit_zero (S := S256x256) hz, View.ld_unit_zero (S := S256x16) hz, View.ld_unit_zero (S := S1x256) hz, View.ld_unit_zero (S := S1x16) hz, View.ld_unit_zero (S := S400x10000) hz, View.ld_unit_zero (S := S400x16) hz]

end Cert.KernelIdeal.Pieces

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.Elu.lean ====
/-
  The exponential linear unit on the extended reals, in two spellings.

  One program writes elu(h) as "h where h > 0, else exp(min(h, 0)) - 1"; the other as "h where h > 0, else
  1 * (exp(z) - 1) with z = 0 where h > 0, else h". Where h > 0 both are h. Elsewhere h ≤ 0, so min(h, 0) = h and
  z = h, and the two are exp(h) - 1 and 1 * (exp(h) - 1): the same extended real, at the infinities too (nothing is
  cancelled or distributed). The words 0x00000000 and 0x3F800000 are the numbers 0 and 1.
-/
import Idealize.ShloMosaic.PureOps.Ideal.Laws
import Idealize.ShloMosaic.Lib.ValueIdx

noncomputable section

namespace Cert.Gcn

open Idealize.ShloMosaic

/-- The f32 word `0x00000000` is the number 0. -/
theorem ofBits_zero : Ideal.ofBits .f32 0x00000000#32 = (0 : EReal) := Ideal.ofBits_zero_f32

/-- The f32 word `0x3F800000` is the number 1. -/
theorem ofBits_one : Ideal.ofBits .f32 0x3F800000#32 = (1 : EReal) := by
  simp [Ideal.ofBits, Ideal.ieee, -EReal.coe_mul]
  norm_num

/-- elu in the spelling with a minimum: h where h > 0, else exp(min(h, 0)) - 1. -/
def eluMin (h : EReal) : EReal :=
  Scalar.select (Ideal.cmp .ogt h (Ideal.ofBits .f32 0x00000000#32)) h
    (Ideal.exp (min h (Ideal.ofBits .f32 0x00000000#32)) - Ideal.ofBits .f32 0x3F800000#32)

/-- elu in the spelling with an inner selection: h where h > 0, else 1 * (exp(z) - 1), z = 0 where h > 0, else h. -/
def eluSel (h : EReal) : EReal :=
  Scalar.select (Ideal.cmp .ogt h (Ideal.ofBits .f32 0x00000000#32)) h
    (Ideal.ofBits .f32 0x3F800000#32
      * (Ideal.exp (Scalar.select (Ideal.cmp .ogt h (Ideal.ofBits .f32 0x00000000#32)) (Ideal.ofBits .f32 0x00000000#32) h) - 1))

/-- The two spellings are one function of the extended reals. -/
theorem eluSel_eq_eluMin (h : EReal) : eluSel h = eluMin h := by
  unfold eluSel eluMin
  rw [ofBits_zero, ofBits_one]
  by_cases hp : (0 : EReal) < h
  · have e : Ideal.cmp .ogt h 0 = 1#1 := by simp [Ideal.cmp, hp]
    rw [e, ValueIdx.select_one, ValueIdx.select_one]
  · have e : Ideal.cmp .ogt h 0 = 0#1 := by simp [Ideal.cmp, hp]
    rw [e, ValueIdx.select_zero, ValueIdx.select_zero, ValueIdx.select_zero, one_mul, min_eq_left (not_lt.mp hp)]

end Cert.Gcn

end
-- ==== Proof.Payload.lean ====
/-
  What one grid point stores, at an entry, on the extended reals.

  A grid point holds a block `a` of 400 rows of the adjacency (all 10000 columns), the feature matrix `xb` (10000×256) from
  the carried scratch, the weights `w` (256×256) and `wf` (256×16) and the two bias rows `b` (1×256), `bf` (1×16). It stores
  the 400×16 block whose entry (p, q) is

      Σ_j elu( Σ_l (Σ_k a(p,k) · xb(k,l)) · w(l,j) + b(0,j) ) · wf(j,q) + bf(0,q),

  elu in the spelling with a minimum. Each of the three products accumulates into the zero array, so it is the plain
  sum over the contracted coordinate; the change of float format on the way into the first product is the identity;
  each bias row is broadcast over the 400 rows. No finiteness is used.
-/
import proofs.«153492_g15805479649401_cont_sun_c4_349_38_alg».proof.Proof.Gen.KernelIdeal.Skeleton
import proofs.«153492_g15805479649401_cont_sun_c4_349_38_alg».proof.Proof.LibPlainDot
import proofs.«153492_g15805479649401_cont_sun_c4_349_38_alg».proof.Proof.Elu
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.Gcn

/-- The hidden block before the unit: (a · xb) · w with the bias row added to every row. -/
def hidden (a : FVec Ideal S400x10000 .f32) (xb : FVec Ideal S10000x256 .bf16) (w : FVec Ideal S256x256 .f32)
    (b : FVec Ideal S1x256 .f32) : FVec Ideal S400x256 .f32 :=
  addf (matmul dot_S400x256_S256x256_S400x256_1_0_0_1_n_n none
      (matmul dot_S400x10000_S10000x256_S400x256_1_0_0_1_n_n none (truncf .bf16 a bitsLt_bf16_f32) xb
        (constant S400x256 .f32 0x00000000#32))
      w (constant S400x256 .f32 0x00000000#32))
    (broadcastTo S400x256 (shapeCast S1x256 b shapeCasts_S1x256_S1x256) broadcasts_S1x256_S400x256)

/-- The unit on a block, in the spelling with a minimum. -/
def unit (h : FVec Ideal S400x256 .f32) : FVec Ideal S400x256 .f32 :=
  select (cmpf .ogt h (broadcast S400x256 (Scalar.ofBits .f32 0x00000000#32))) h
    (subf (exp (minimumf h (broadcast S400x256 (Scalar.ofBits .f32 0x00000000#32))))
      (broadcast S400x256 (Scalar.ofBits .f32 0x3F800000#32)))

/-- The stored block is the classifier applied to the unit of the hidden block. -/
theorem pay2_eq (a : FVec Ideal S400x10000 .f32) (xb : FVec Ideal S10000x256 .bf16) (w : FVec Ideal S256x256 .f32)
    (b : FVec Ideal S1x256 .f32) (wf : FVec Ideal S256x16 .f32) (bf : FVec Ideal S1x16 .f32) :
    k0_pay2 (F := Ideal) a xb w b wf bf
      = addf (matmul dot_S400x256_S256x16_S400x16_1_0_0_1_n_n none (unit (hidden a xb w b)) wf (constant S400x16 .f32 0x00000000#32))
          (broadcastTo S400x16 (shapeCast S1x16 bf shapeCasts_S1x16_S1x16) broadcasts_S1x16_S400x16) := rfl

/-- The hidden block at an entry. -/
theorem hidden_apply (a : FVec Ideal S400x10000 .f32) (xb : FVec Ideal S10000x256 .bf16) (w : FVec Ideal S256x256 .f32)
    (b : FVec Ideal S1x256 .f32) (p : Fin 400) (j : Fin 256) :
    hidden a xb w b (ix2 p j)
      = (∑ l : Fin 256, (∑ k : Fin 10000, a (ix2 p k) * xb (ix2 k l)) * w (ix2 l j)) + b (ix2 (0 : Fin 1) j) := by
  show FloatOps.matmul (DotDims.plain 400 256 256) none _ w (constant ⟨2, ![400, 256]⟩ .f32 0x00000000#32) (ix2 p j)
      + broadcastTo S400x256 (shapeCast S1x256 b shapeCasts_S1x256_S1x256) broadcasts_S1x256_S400x256 (ix2 p j) = _
  refine congrArg₂ (· + ·) ?_ ?_
  · refine (Cert.Lib.PlainDot.matmul_zero_apply none _ w p j).trans ?_
    refine Finset.sum_congr rfl fun l _ => congrArg (· * w (ix2 l j)) ?_
    exact Cert.Lib.PlainDot.matmul_zero_apply (M := 400) (K := 10000) (N := 256) none (truncf .bf16 a bitsLt_bf16_f32) xb p l
  · refine (broadcastTo_1b_ab_apply _ broadcasts_S1x256_S400x256 p j).trans ?_
    rw [shapeCast_self]

/-- The unit at an entry. -/
theorem unit_apply (h : FVec Ideal S400x256 .f32) (i : S400x256.Idx) : unit h i = eluMin (h i) := rfl

/-- The stored block at an entry. -/
theorem pay2_apply (a : FVec Ideal S400x10000 .f32) (xb : FVec Ideal S10000x256 .bf16) (w : FVec Ideal S256x256 .f32)
    (b : FVec Ideal S1x256 .f32) (wf : FVec Ideal S256x16 .f32) (bf : FVec Ideal S1x16 .f32) (p : Fin 400) (q : Fin 16) :
    (k0_pay2 (F := Ideal) a xb w b wf bf (ix2 p q) : EReal)
      = (∑ j : Fin 256, eluMin ((∑ l : Fin 256, (∑ k : Fin 10000, a (ix2 p k) * xb (ix2 k l)) * w (ix2 l j)) + b (ix2 (0 : Fin 1) j))
            * wf (ix2 j q)) + bf (ix2 (0 : Fin 1) q) := by
  rw [pay2_eq]
  show FloatOps.matmul (DotDims.plain 400 256 16) none (unit (hidden a xb w b)) wf (constant ⟨2, ![400, 16]⟩ .f32 0x00000000#32) (ix2 p q)
      + broadcastTo S400x16 (shapeCast S1x16 bf shapeCasts_S1x16_S1x16) broadcasts_S1x16_S400x16 (ix2 p q) = _
  refine congrArg₂ (· + ·) ?_ ?_
  · refine (Cert.Lib.PlainDot.matmul_zero_apply none _ wf p q).trans ?_
    refine Finset.sum_congr rfl fun j _ => congrArg (· * wf (ix2 j q)) ?_
    rw [unit_apply, hidden_apply]
  · refine (broadcastTo_1b_ab_apply _ broadcasts_S1x16_S400x16 p q).trans ?_
    rw [shapeCast_self]

/-- What the first grid point stores into the carried scratch: the feature matrix itself. -/
theorem pay1_apply (x : FVec Ideal S10000x256 .f32) (i : S10000x256.Idx) : (k0_pay1 (F := Ideal) x i : EReal) = x i := by
  show (shapeCast S10000x256 (truncf (F := Ideal) .bf16 x bitsLt_bf16_f32) shapeCasts_S10000x256_S10000x256 i : EReal) = x i
  rw [shapeCast_self]
  rfl

end Cert.KernelIdeal.Pay

end
-- ==== Proof.LibMatrixProd.lean ====
/-
  Matrix products on the extended reals, entry by entry, and their associativity for arrays of real numbers.

  `prod x y` is the product of an a×k array with a k×b array over literal rank-2 shapes: its entry (p, q) is the
  sum over the inner coordinate l of x(p, l) · y(l, q). `cols b off h x` is the a×b array of the columns
  off … off + b − 1 of an a×n array. `IsReal x` says every entry of x is a real number.

  On the extended reals (x · y) · z = x · (y · z) fails at the infinities: it moves a factor across a sum. For
  real-valued arrays both sides are the coercion of one real double sum, by distributivity and the exchange of two
  finite sums (`prod_assoc`, over `vec_mat_vec`); a product of real-valued arrays is real-valued (`prod_isReal`), so
  the law applies to products of products. The columns of a product are the product with the columns (`cols_prod`),
  for any arrays. `coe_sum`: the coercion ℝ → EReal commutes with a finite sum.
-/
import Idealize.ShloMosaic.PureOps.Ideal
import Idealize.ShloMosaic.Lib.ValueIdx
import Mathlib.Data.EReal.Operations
import Mathlib.Algebra.BigOperators.Ring.Finset
import Mathlib.Algebra.BigOperators.Group.Finset.Sigma
import Mathlib.Tactic.Ring

noncomputable section

namespace Cert.Matrices

open Idealize.ShloMosaic Idealize.ShloMosaic.ValueIdx

/-- Entry `i` of the product of an a×k array with a k×b array. -/
def prod {a k b : Nat} (x : (⟨2, ![a, k]⟩ : Shape).Idx → EReal) (y : (⟨2, ![k, b]⟩ : Shape).Idx → EReal) :
    (⟨2, ![a, b]⟩ : Shape).Idx → EReal :=
  fun i => ∑ l : Fin k, x (ix2 (i 0) l) * y (ix2 l (i 1))

/-- The product at any index, by its two coordinates. -/
theorem prod_eq {a k b : Nat} (x : (⟨2, ![a, k]⟩ : Shape).Idx → EReal) (y : (⟨2, ![k, b]⟩ : Shape).Idx → EReal)
    (i : (⟨2, ![a, b]⟩ : Shape).Idx) : prod x y i = ∑ l : Fin k, x (ix2 (i 0) l) * y (ix2 l (i 1)) := rfl

/-- The product at the index of row p and column q. -/
theorem prod_apply {a k b : Nat} (x : (⟨2, ![a, k]⟩ : Shape).Idx → EReal) (y : (⟨2, ![k, b]⟩ : Shape).Idx → EReal)
    (p : Fin a) (q : Fin b) : prod x y (ix2 p q) = ∑ l : Fin k, x (ix2 p l) * y (ix2 l q) := rfl

/-- The columns `off … off + b − 1` of an a×n array, as an a×b array. -/
def cols {a n : Nat} (b off : Nat) (h : off + b ≤ n) (x : (⟨2, ![a, n]⟩ : Shape).Idx → EReal) :
    (⟨2, ![a, b]⟩ : Shape).Idx → EReal :=
  fun i => x (ix2 (i 0) ⟨off + (i 1).val, by have := (i 1).isLt; simp at this; omega⟩)

/-- Column q of the selected columns is column off + q of the array. -/
theorem cols_apply {a n : Nat} (b off : Nat) (h : off + b ≤ n) (x : (⟨2, ![a, n]⟩ : Shape).Idx → EReal)
    (p : Fin a) (q : Fin b) : cols b off h x (ix2 p q) = x (ix2 p ⟨off + q.val, by have := q.isLt; omega⟩) := rfl

/-- Every entry of the array is a real number. -/
def IsReal {s : Shape} (x : s.Idx → EReal) : Prop := ∀ i, ∃ r : ℝ, x i = (r : EReal)

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A vector through a matrix and against a second vector, bracketed either way: for real u, M, v,
    ∑_b (∑_a u_a · M_ab) · v_b = ∑_a u_a · (∑_b M_ab · v_b) in the extended reals. -/
theorem vec_mat_vec {α β : Type*} [Fintype α] [Fintype β] (u : α → ℝ) (M : α → β → ℝ) (v : β → ℝ) :
    ∑ b, (∑ a, (u a : EReal) * (M a b : EReal)) * (v b : EReal)
      = ∑ a, (u a : EReal) * ∑ b, (M a b : EReal) * (v b : EReal) := by
  simp only [← EReal.coe_mul, ← coe_sum]
  refine congrArg _ ?_
  simp only [Finset.mul_sum, Finset.sum_mul]
  rw [Finset.sum_comm]
  exact Finset.sum_congr rfl fun a _ => Finset.sum_congr rfl fun b _ => by ring

/-- The product of two real-valued arrays is real-valued. -/
theorem prod_isReal {a k b : Nat} {x : (⟨2, ![a, k]⟩ : Shape).Idx → EReal} {y : (⟨2, ![k, b]⟩ : Shape).Idx → EReal}
    (hx : IsReal x) (hy : IsReal y) : IsReal (prod x y) := by
  choose fx hfx using hx
  choose fy hfy using hy
  intro i
  refine ⟨∑ l : Fin k, fx (ix2 (i 0) l) * fy (ix2 l (i 1)), ?_⟩
  rw [prod_eq, coe_sum]
  refine Finset.sum_congr rfl fun l _ => ?_
  rw [hfx, hfy, EReal.coe_mul]

/-- (x · y) · z = x · (y · z) for real-valued arrays. -/
theorem prod_assoc {a k n b : Nat} {x : (⟨2, ![a, k]⟩ : Shape).Idx → EReal} {y : (⟨2, ![k, n]⟩ : Shape).Idx → EReal}
    {z : (⟨2, ![n, b]⟩ : Shape).Idx → EReal} (hx : IsReal x) (hy : IsReal y) (hz : IsReal z) :
    prod (prod x y) z = prod x (prod y z) := by
  choose fx hfx using hx
  choose fy hfy using hy
  choose fz hfz using hz
  funext i
  obtain ⟨p, q, rfl⟩ : ∃ (p : Fin a) (q : Fin b), i = ix2 p q := ⟨i 0, i 1, eq_ix2 i⟩
  rw [prod_apply, prod_apply]
  simp only [prod_apply, hfx, hfy, hfz]
  exact vec_mat_vec (fun j : Fin k => fx (ix2 p j)) (fun (j : Fin k) (l : Fin n) => fy (ix2 j l)) (fun l : Fin n => fz (ix2 l q))

/-- The columns of a product are the product with the columns. -/
theorem cols_prod {a k n : Nat} (b off : Nat) (h : off + b ≤ n) (x : (⟨2, ![a, k]⟩ : Shape).Idx → EReal)
    (y : (⟨2, ![k, n]⟩ : Shape).Idx → EReal) : cols b off h (prod x y) = prod x (cols b off h y) := by
  funext i
  obtain ⟨p, q, rfl⟩ : ∃ (p : Fin a) (q : Fin b), i = ix2 p q := ⟨i 0, i 1, eq_ix2 i⟩
  rfl

end Cert.Matrices

end
-- ==== Proof.Spec.lean ====
/-
  The two-layer graph network as one function of its six arrays, and the law that joins its two bracketings.

  With x the 10000×256 features, A the 10000×10000 adjacency, W (256×256) and b (256) the first layer, Wf (256×16) and
  bf (16) the classifier, the result at (r, q) is

      Σ_j elu(hid(r, j)) · Wf(j, q) + bf(q),      hid(r, j) = Σ_k A(r,k) · (Σ_l x(k,l) · W(l,j)) + b(j)     (`hidR`)

  One program forms the hidden entry the other way round, Σ_l (Σ_k A(r,k) · x(k,l)) · W(l,j) + b(j) (`hidK`), and spells
  elu with a minimum. Moving W(l,j) across the sum over k is distributivity, which fails at the infinities of the
  extended reals; for arrays of real numbers both bracketings are the coercion of one real double sum (`hidK_eq_hidR`).
  The two spellings of elu agree on every extended real (`eluSel_eq_eluMin`).
-/
import proofs.«153492_g15805479649401_cont_sun_c4_349_38_alg».proof.Proof.Elu
import proofs.«153492_g15805479649401_cont_sun_c4_349_38_alg».proof.Proof.LibMatrixProd

noncomputable section

namespace Cert.Gcn

open Idealize.ShloMosaic Idealize.ShloMosaic.ValueIdx Cert.Matrices

variable (x : (⟨2, ![10000, 256]⟩ : Shape).Idx → EReal) (A : (⟨2, ![10000, 10000]⟩ : Shape).Idx → EReal)
  (W : (⟨2, ![256, 256]⟩ : Shape).Idx → EReal) (b : (⟨1, ![256]⟩ : Shape).Idx → EReal)
  (Wf : (⟨2, ![256, 16]⟩ : Shape).Idx → EReal) (bf : (⟨1, ![16]⟩ : Shape).Idx → EReal)

/-- The hidden entry (r, j), the features multiplied by the weights first: A · (x · W) + b. -/
def hidR (r : Fin 10000) (j : Fin 256) : EReal :=
  (∑ k : Fin 10000, A (ix2 r k) * ∑ l : Fin 256, x (ix2 k l) * W (ix2 l j)) + b (ix1 j)

/-- The hidden entry (r, j), the adjacency multiplied by the features first: (A · x) · W + b. -/
def hidK (r : Fin 10000) (j : Fin 256) : EReal :=
  (∑ l : Fin 256, (∑ k : Fin 10000, A (ix2 r k) * x (ix2 k l)) * W (ix2 l j)) + b (ix1 j)

variable {x A W}

/-- For real-valued features, adjacency and weights the two bracketings are one number. -/
theorem hidK_eq_hidR (hx : IsReal x) (hA : IsReal A) (hW : IsReal W) (r : Fin 10000) (j : Fin 256) :
    hidK x A W b r j = hidR x A W b r j := by
  choose fx hfx using hx
  choose fA hfA using hA
  choose fW hfW using hW
  unfold hidK hidR
  refine congrArg (· + b (ix1 j)) ?_
  simp only [hfx, hfA, hfW]
  exact vec_mat_vec (fun k : Fin 10000 => fA (ix2 r k)) (fun (k : Fin 10000) (l : Fin 256) => fx (ix2 k l))
    (fun l : Fin 256 => fW (ix2 l j))

variable (x A W)

/-- The classifier over a hidden layer `hid` passed through a unit `act`. -/
def outOf (hid : Fin 10000 → Fin 256 → EReal) (act : EReal → EReal) : (⟨2, ![10000, 16]⟩ : Shape).Idx → EReal :=
  fun i => (∑ j : Fin 256, act (hid (i 0) j) * Wf (ix2 j (i 1))) + bf (ix1 (i 1))

/-- The classifier's entry at row p and column q. -/
theorem outOf_apply (hid : Fin 10000 → Fin 256 → EReal) (act : EReal → EReal) (p : Fin 10000) (q : Fin 16) :
    outOf Wf bf hid act (ix2 p q) = (∑ j : Fin 256, act (hid p j) * Wf (ix2 j q)) + bf (ix1 q) := rfl

/-- The network's result as one function of its six arrays. -/
def G : (⟨2, ![10000, 16]⟩ : Shape).Idx → EReal := outOf Wf bf (hidR x A W b) eluSel

variable {x A W}

/-- The other bracketing with the other spelling of the unit is the same function, for real-valued x, A, W. -/
theorem outOf_hidK_eluMin (hx : IsReal x) (hA : IsReal A) (hW : IsReal W) :
    outOf Wf bf (hidK x A W b) eluMin = G x A W b Wf bf := by
  funext i
  obtain ⟨p, q, rfl⟩ : ∃ (p : Fin 10000) (q : Fin 16), i = ix2 p q := ⟨i 0, i 1, eq_ix2 i⟩
  unfold G
  rw [outOf_apply, outOf_apply]
  refine congrArg (· + bf (ix1 q)) (Finset.sum_congr rfl fun j _ => ?_)
  rw [hidK_eq_hidR b hx hA hW, eluSel_eq_eluMin]

end Cert.Gcn

end
-- ==== Proof.Point.lean ====
/-
  One stored entry of one grid point is one entry of the network function in the kernel's bracketing.

  If row p of the point's adjacency block is row r of the adjacency A, the scratch holds the features x, the staged
  weights are W and Wf and the staged bias rows are the bias vectors laid on one row, then entry (p, q) of the stored block
  is entry (r, q) of Σ_j elu(Σ_l (Σ_k A(r,k) · x(k,l)) · W(l,j) + b(j)) · Wf(j,q) + bf(q): the same sums term by term.
-/
import proofs.«153492_g15805479649401_cont_sun_c4_349_38_alg».proof.Proof.Payload
import proofs.«153492_g15805479649401_cont_sun_c4_349_38_alg».proof.Proof.Spec

noncomputable section

namespace Cert.KernelIdeal.Pay

open Cert.KernelIdeal Cert.KernelIdeal.Gen Idealize.ShloMosaic Idealize.ShloMosaic.ValueIdx Cert.Gcn

/-- Entry (p, q) of a point's stored block is entry (r, q) of the network in the kernel's bracketing. -/
theorem point_entry (a : FVec Ideal S400x10000 .f32) (xb : FVec Ideal S10000x256 .bf16) (w : FVec Ideal S256x256 .f32)
    (b : FVec Ideal S1x256 .f32) (wf : FVec Ideal S256x16 .f32) (bf : FVec Ideal S1x16 .f32)
    (x : (⟨2, ![10000, 256]⟩ : Shape).Idx → EReal) (A : (⟨2, ![10000, 10000]⟩ : Shape).Idx → EReal)
    (W : (⟨2, ![256, 256]⟩ : Shape).Idx → EReal) (bv : (⟨1, ![256]⟩ : Shape).Idx → EReal)
    (Wf : (⟨2, ![256, 16]⟩ : Shape).Idx → EReal) (bfv : (⟨1, ![16]⟩ : Shape).Idx → EReal)
    (r : Fin 10000) (p : Fin 400) (q : Fin 16)
    (ha : ∀ k : Fin 10000, (a (ix2 p k) : EReal) = A (ix2 r k))
    (hxb : ∀ (k : Fin 10000) (l : Fin 256), (xb (ix2 k l) : EReal) = x (ix2 k l))
    (hw : ∀ (l j : Fin 256), (w (ix2 l j) : EReal) = W (ix2 l j))
    (hb : ∀ j : Fin 256, (b (ix2 (0 : Fin 1) j) : EReal) = bv (ix1 j))
    (hwf : ∀ j : Fin 256, (wf (ix2 j q) : EReal) = Wf (ix2 j q))
    (hbf : (bf (ix2 (0 : Fin 1) q) : EReal) = bfv (ix1 q)) :
    (k0_pay2 (F := Ideal) a xb w b wf bf (ix2 p q) : EReal) = outOf Wf bfv (hidK x A W bv) eluMin (ix2 r q) := by
  rw [pay2_apply, outOf_apply, hbf]
  refine congrArg (· + bfv (ix1 q)) (Finset.sum_congr rfl fun j _ => ?_)
  rw [hwf j, hb j]
  unfold hidK
  refine congrArg (fun z => eluMin (z + bv (ix1 j)) * Wf (ix2 j q)) (Finset.sum_congr rfl fun l _ => ?_)
  rw [hw l j]
  refine congrArg (· * W (ix2 l j)) (Finset.sum_congr rfl fun k _ => ?_)
  rw [ha k, hxb k l]

end Cert.KernelIdeal.Pay

end
-- ==== Proof.KernelValue.lean ====
/-
  The kernel's result array, as one function of its arguments.

  The carried scratch: the first grid point copies the feature matrix into it and no later point stores into it, so
  after every point it holds that copy (by induction on the point). Hence what point t writes back is the payload of
  its adjacency block (rows 400t … 400t+399 of the adjacency), the features, the weights and the bias rows; entry
  (p, q) of it is entry (400t + p, q) of the network function in the kernel's bracketing (`Gk`). The 25 output blocks
  of 400 rows tile the 10000 rows, so the result array ends holding `Gk`.
-/
import proofs.«153492_g15805479649401_cont_sun_c4_349_38_alg».proof.Proof.Gen.KernelIdeal.Value
import proofs.«153492_g15805479649401_cont_sun_c4_349_38_alg».proof.Proof.Pieces
import proofs.«153492_g15805479649401_cont_sun_c4_349_38_alg».proof.Proof.Point
import Idealize.ShloMosaic.Lib.Pipeline.Value
import Idealize.ShloMosaic.Lib.ValueLayout
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Cert.Gcn
open Idealize.ShloMosaic.Pipeline (Dat)

theorem lt25 {n : ℕ} (h : n < cfg0.N) : n < 25 := lt_of_lt_of_eq h N_0
theorem pos0 {n : ℕ} (h : n < cfg0.N) : 0 < cfg0.N := Nat.lt_of_le_of_lt (Nat.zero_le n) h

section AnyInstance

variable {F : FTy → Type} [FloatOps F]
variable (m : (ℓ : Loc nD τ sig) → Buf (Elt F) ℓ)

/-- After every point the carried scratch holds the copy of the features the first point made. -/
theorem scratch_eq (c : Dev nD) : ∀ (n : ℕ) (h : n < cfg0.N),
    (outsAt0 m c n h).2 = k0_pay1 (iblk m c 0 ⟨0, pos0 h⟩)
  | 0, h => by
    rw [outsAt0_A m c ⟨0, h⟩ rfl]
    dsimp only
    exact Pieces.sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩)
  | n + 1, h => by
    have hB : ¬(⟨n + 1, h⟩ : Fin cfg0.N).val % 25 = 0 := by have := lt25 h; dsimp only; omega
    rw [outsAt0_B m c ⟨n + 1, h⟩ hB]
    show (outsAt0 m c n _).2 = _
    exact scratch_eq c n (Nat.lt_of_succ_lt h)

/-- What point t leaves in the output's staging buffer: the payload over its blocks and that copy. -/
theorem out_eq (c : Dev nD) (t : Fin cfg0.N) :
    (outsAt0 m c t.val t.isLt).1
      = k0_pay2 (iblk m c 5 t) (k0_pay1 (iblk m c 0 ⟨0, pos0 t.isLt⟩)) (iblk m c 1 t) (iblk m c 3 t) (iblk m c 2 t) (iblk m c 4 t) := by
  by_cases h0 : t.val % 25 = 0
  · have ht : (⟨0, pos0 t.isLt⟩ : Fin cfg0.N) = t := Fin.ext (by have := lt25 t.isLt; show 0 = t.val; omega)
    rw [outsAt0_A m c t h0]
    dsimp only
    rw [ht]
    exact Pieces.out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)
  · rw [outsAt0_B m c t h0]
    dsimp only
    refine (Pieces.out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t)
      (outsAt0 m c (t.val - 1) (Nat.lt_of_le_of_lt (Nat.sub_le _ _) t.isLt)).2).trans ?_
    rw [scratch_eq m c (t.val - 1) (Nat.lt_of_le_of_lt (Nat.sub_le _ _) t.isLt)]

end AnyInstance

/-! ## At the extended reals -/

variable (m : (ℓ : Loc nD τ sig) → Buf (Elt Ideal) ℓ) (ρ : Dev nD → PrngReg)

/-- The network function in the kernel's bracketing, of the six argument arrays as launched. -/
def Gk (c : Dev nD) : S10000x16.Idx → EReal :=
  outOf (m ((c : Thread nD τ).loc main_arg4)) (m ((c : Thread nD τ).loc main_arg5))
    (hidK (m ((c : Thread nD τ).loc main_arg0)) (m ((c : Thread nD τ).loc main_arg1)) (m ((c : Thread nD τ).loc main_arg2))
      (m ((c : Thread nD τ).loc main_arg3))) eluMin

/-- The printed index maps, decided once over the 25 grid points: the adjacency and the output move with the point
    along the rows; every other window stays at block (0, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The first bias row as the region finds it: the bias vector reshaped to one row. -/
theorem V_bias0 (c : Dev nD) :
    (V m c main_call0_v0 : S1x256.Idx → EReal) = shapeCast S1x256 (m ((c : Thread nD τ).loc main_arg3)) shapeCasts_S256_S1x256 := by
  dsimp only [Gen.V, Gen.hostOps0]; after_results; rfl

/-- The second bias row as the region finds it. -/
theorem V_bias1 (c : Dev nD) :
    (V m c main_call0_v1 : S1x16.Idx → EReal) = shapeCast S1x16 (m ((c : Thread nD τ).loc main_arg5)) shapeCasts_S16_S1x16 := by
  dsimp only [Gen.V, Gen.hostOps0]; after_results; rfl

/-- The features' block at any point is the whole feature matrix. -/
theorem blk0 (c : Dev nD) (t : Fin cfg0.N) (k : Fin 10000) (l : Fin 256) :
    (iblk m c 0 t : Vec Ideal S10000x256 .f32) (ix2 k l) = m ((c : Thread nD τ).loc main_arg0) (ix2 k l) := by
  unfold iblk
  rw [View.read_apply]
  show V m c main_arg0 (((cfg0.win 0).blk t).view.emb (ix2 k l)) = _
  rw [V_main_arg0]
  obtain ⟨e00, e01, -⟩ := idx_facts t
  refine congrArg _ (funext fun a => Fin.ext ?_)
  match a with
  | ⟨0, _⟩ => show win0_0.index t (0 : Fin 2) * 10000 + 1 * k.val = k.val; rw [e00]; omega
  | ⟨1, _⟩ => show win0_0.index t (1 : Fin 2) * 256 + 1 * l.val = l.val; rw [e01]; omega

/-- The first layer's weights. -/
theorem blk1 (c : Dev nD) (t : Fin cfg0.N) (l j : Fin 256) :
    (iblk m c 1 t : Vec Ideal S256x256 .f32) (ix2 l j) = m ((c : Thread nD τ).loc main_arg2) (ix2 l j) := by
  unfold iblk
  rw [View.read_apply]
  show V m c main_arg2 (((cfg0.win 1).blk t).view.emb (ix2 l j)) = _
  rw [V_main_arg2]
  obtain ⟨-, -, e10, e11, -⟩ := idx_facts t
  refine congrArg _ (funext fun a => Fin.ext ?_)
  match a with
  | ⟨0, _⟩ => show win0_1.index t (0 : Fin 2) * 256 + 1 * l.val = l.val; rw [e10]; omega
  | ⟨1, _⟩ => show win0_1.index t (1 : Fin 2) * 256 + 1 * j.val = j.val; rw [e11]; omega

/-- The classifier's weights. -/
theorem blk2 (c : Dev nD) (t : Fin cfg0.N) (j : Fin 256) (q : Fin 16) :
    (iblk m c 2 t : Vec Ideal S256x16 .f32) (ix2 j q) = m ((c : Thread nD τ).loc main_arg4) (ix2 j q) := by
  unfold iblk
  rw [View.read_apply]
  show V m c main_arg4 (((cfg0.win 2).blk t).view.emb (ix2 j q)) = _
  rw [V_main_arg4]
  obtain ⟨-, -, -, -, e20, e21, -⟩ := idx_facts t
  refine congrArg _ (funext fun a => Fin.ext ?_)
  match a with
  | ⟨0, _⟩ => show win0_2.index t (0 : Fin 2) * 256 + 1 * j.val = j.val; rw [e20]; omega
  | ⟨1, _⟩ => show win0_2.index t (1 : Fin 2) * 16 + 1 * q.val = q.val; rw [e21]; omega

/-- The first bias row at column j is the bias vector at j. -/
theorem blk3 (c : Dev nD) (t : Fin cfg0.N) (j : Fin 256) :
    (iblk m c 3 t : Vec Ideal S1x256 .f32) (ix2 (0 : Fin 1) j) = m ((c : Thread nD τ).loc main_arg3) (ix1 j) := by
  unfold iblk
  rw [View.read_apply]
  show V m c main_call0_v0 (((cfg0.win 3).blk t).view.emb (ix2 (0 : Fin 1) j)) = _
  obtain ⟨-, -, -, -, -, -, e30, e31, -⟩ := idx_facts t
  have he : ((cfg0.win 3).blk t).view.emb (ix2 (0 : Fin 1) j) = ix2 (0 : Fin 1) j := funext fun a => Fin.ext (by
    match a with
    | ⟨0, _⟩ => show win0_3.index t (0 : Fin 2) * 1 + 1 * 0 = 0; rw [e30]
    | ⟨1, _⟩ => show win0_3.index t (1 : Fin 2) * 256 + 1 * j.val = j.val; rw [e31]; omega)
  rw [he, V_bias0]
  exact shapeCast_a_1a_apply _ shapeCasts_S256_S1x256 0 j

/-- The second bias row at column q is the bias vector at q. -/
theorem blk4 (c : Dev nD) (t : Fin cfg0.N) (q : Fin 16) :
    (iblk m c 4 t : Vec Ideal S1x16 .f32) (ix2 (0 : Fin 1) q) = m ((c : Thread nD τ).loc main_arg5) (ix1 q) := by
  unfold iblk
  rw [View.read_apply]
  show V m c main_call0_v1 (((cfg0.win 4).blk t).view.emb (ix2 (0 : Fin 1) q)) = _
  obtain ⟨-, -, -, -, -, -, -, -, e40, e41, -⟩ := idx_facts t
  have he : ((cfg0.win 4).blk t).view.emb (ix2 (0 : Fin 1) q) = ix2 (0 : Fin 1) q := funext fun a => Fin.ext (by
    match a with
    | ⟨0, _⟩ => show win0_4.index t (0 : Fin 2) * 1 + 1 * 0 = 0; rw [e40]
    | ⟨1, _⟩ => show win0_4.index t (1 : Fin 2) * 16 + 1 * q.val = q.val; rw [e41]; omega)
  rw [he, V_bias1]
  exact shapeCast_a_1a_apply _ shapeCasts_S16_S1x16 0 q

/-- Row p of the adjacency block at point t is row 400t + p of the adjacency. -/
theorem blk5 (c : Dev nD) (t : Fin cfg0.N) (p : Fin 400) (k : Fin 10000) (r : Fin 10000) (hr : r.val = 400 * t.val + p.val) :
    (iblk m c 5 t : Vec Ideal S400x10000 .f32) (ix2 p k) = m ((c : Thread nD τ).loc main_arg1) (ix2 r k) := by
  unfold iblk
  rw [View.read_apply]
  show V m c main_arg1 (((cfg0.win 5).blk t).view.emb (ix2 p k)) = _
  rw [V_main_arg1]
  obtain ⟨-, -, -, -, -, -, -, -, -, -, e50, e51, -⟩ := idx_facts t
  refine congrArg _ (funext fun a => Fin.ext ?_)
  match a with
  | ⟨0, _⟩ => show win0_5.index t (0 : Fin 2) * 400 + 1 * p.val = r.val; rw [e50, hr]; omega
  | ⟨1, _⟩ => show win0_5.index t (1 : Fin 2) * 10000 + 1 * k.val = k.val; rw [e51]; omega

/-- What point t writes back is block t of `Gk`. -/
theorem flushed_eq (c : Dev nD) (t : Fin cfg0.N) :
    (dats m 0 c).flushed 6 t = ((cfg0.win 6).blk t).view.read (Elt Ideal) (Gk m c) := by
  show (cfg0.win 6).cut (grid0.coords t) ((dats m 0 c).after 6 t) = _
  rw [after0_6, out_eq]
  funext y
  obtain ⟨p, q, rfl⟩ : ∃ (p : Fin 400) (q : Fin 16), y = ix2 p q := ⟨y 0, y 1, eq_ix2 y⟩
  rw [View.read_apply]
  have hlt : 400 * t.val + p.val < 10000 := by have := lt25 t.isLt; have := p.isLt; omega
  obtain ⟨-, -, -, -, -, -, -, -, -, -, -, -, e60, e61⟩ := idx_facts t
  have he : ((cfg0.win 6).blk t).view.emb (ix2 p q) = ix2 (⟨400 * t.val + p.val, hlt⟩ : Fin 10000) q :=
    funext fun a => Fin.ext (by
      match a with
      | ⟨0, _⟩ => show win0_6.index t (0 : Fin 2) * 400 + 1 * p.val = 400 * t.val + p.val; rw [e60]; omega
      | ⟨1, _⟩ => show win0_6.index t (1 : Fin 2) * 16 + 1 * q.val = q.val; rw [e61]; omega)
  rw [he]
  exact Pay.point_entry (iblk m c 5 t) (k0_pay1 (iblk m c 0 ⟨0, pos0 t.isLt⟩)) (iblk m c 1 t) (iblk m c 3 t) (iblk m c 2 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ⟨400 * t.val + p.val, hlt⟩ p q
    (fun k => blk5 m c t p k _ rfl)
    (fun k l => (Pay.pay1_apply _ _).trans (blk0 m c _ k l))
    (fun l j => blk1 m c t l j) (fun j => blk3 m c t j) (fun j => blk2 m c t j q) (blk4 m c t q)

/-- An index of the result array is in point t's block iff its row is among the block's 400 rows. -/
theorem mem_blk (t : Fin cfg0.N) (i : S10000x16.Idx) :
    i ∈ ((cfg0.win 6).blk t).view.set ↔ ∀ a : Fin 2, win0_6.index t a * S400x16.size a ≤ (i a).val ∧ (i a).val < win0_6.index t a * S400x16.size a + S400x16.size a := by
  show i ∈ ((View.whole main_v0).slice (win0_6.rect t)).set ↔ _
  rw [View.set_slice_whole, Rect.mem_set_unit]
  exact Iff.rfl

/-- Every index is in the block of the point its row falls in: row r belongs to point r / 400. -/
theorem cover (i : S10000x16.Idx) : ∃ t : Fin cfg0.N, (cfg0.win 6).flush t = true ∧ i ∈ ((cfg0.win 6).blk t).view.set := by
  have h0 : (i 0).val < 10000 := (i 0).isLt
  have h1 : (i 1).val < 16 := (i 1).isLt
  have hN : cfg0.N = 25 := N_0
  refine ⟨⟨(i 0).val / 400, by rw [hN]; omega⟩, flush0_6 _, ?_⟩
  rw [mem_blk]
  obtain ⟨-, -, -, -, -, -, -, -, -, -, -, -, e60, e61⟩ := idx_facts ⟨(i 0).val / 400, by rw [hN]; omega⟩
  intro a
  match a with
  | ⟨0, _⟩ =>
    show win0_6.index _ (0 : Fin 2) * 400 ≤ (i 0).val ∧ (i 0).val < win0_6.index _ (0 : Fin 2) * 400 + 400
    rw [e60]; dsimp only; omega
  | ⟨1, _⟩ =>
    show win0_6.index _ (1 : Fin 2) * 16 ≤ (i 1).val ∧ (i 1).val < win0_6.index _ (1 : Fin 2) * 16 + 16
    rw [e61]; omega

/-- The result array after the run is `Gk`. -/
theorem final (c : Dev nD) : (dats m 0 c).arrAt 6 cfg0.N = Gk m c :=
  (dats m 0 c).arrAt_eq_of_cover 6 (Gk m c) (fun t _ => flushed_eq m c t) cover

/-- The frame run re-posted: the result array at `Gk` of the arguments, the arguments unchanged. -/
theorem run : θ_run defs (onTc (τ := τ) (main (F := Ideal))) ⟨m, fun _ => 0, ρ⟩ fun r => ∀ c : Dev nD,
      r.2.mem ((c : Thread nD τ).loc main_v0) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KValue

end
-- ==== Proof.RefRun.lean ====
/-
  The reference program's run, read back.

  The reference's @main is a straight line of host operations once its two private functions are opened at their call
  sites: the three matrix products and two bias additions of @main, and between them the eleven operations of the
  exponential linear unit (two comparisons with zero, the inner selection, exp(z) - 1, the product with one, the
  outer selection). Every weakly fair execution terminates with the result buffer at the composition `refOut` of
  these operations applied to the argument arrays, and the arguments unchanged.
-/
import proofs.«153492_g15805479649401_cont_sun_c4_349_38_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two private functions opened where they are called. -/
abbrev ops : List (HloOp τ sig (Elt F)) :=
  [ binary main_arg0 main_arg2 main_v0 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    binary main_arg1 main_v0 main_v1 ((fun l r => Host.dotGeneral dot_S10000x10000_S10000x256_S10000x256_1_0_0_1_n_n none l r) : (⟨S10000x10000, .f32⟩ : BufTy).Contents (Elt F) → (⟨S10000x256, .f32⟩ : BufTy).Contents (Elt F) → (⟨S10000x256, .f32⟩ : BufTy).Contents (Elt F)),
    unary main_arg3 main_v2 (broadcastInDim S1x256 ![1] bcast_S256_S1x256_1 : (⟨S256, .f32⟩ : BufTy).Contents (Elt F) → (⟨S1x256, .f32⟩ : BufTy).Contents (Elt F)),
    unary main_v2 main_v3 (broadcastInDim S10000x256 ![0, 1] bcast_S1x256_S10000x256_0_1 : (⟨S1x256, .f32⟩ : BufTy).Contents (Elt F) → (⟨S10000x256, .f32⟩ : BufTy).Contents (Elt F)),
    binary main_v1 main_v3 main_v4 (addf : (⟨S10000x256, .f32⟩ : BufTy).Contents (Elt F) → (⟨S10000x256, .f32⟩ : BufTy).Contents (Elt F) → (⟨S10000x256, .f32⟩ : BufTy).Contents (Elt F)),
    TRef.nullary main_call0.cst (constant S_ .f32 0x00000000#32),
    TRef.unary main_call0.cst main_call0.v0 (broadcastInDim S10000x256 ![] bcast_S_S10000x256),
    TRef.binary (.of main_v4) main_call0.v0 main_call0.v1 (cmpf .ogt),
    TRef.nullary main_call0.cst_0 (constant S_ .f32 0x00000000#32),
    TRef.unary main_call0.cst_0 main_call0.v2 (broadcastInDim S10000x256 ![] bcast_S_S10000x256),
    TRef.binary (.of main_v4) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S10000x256 ![] bcast_S_S10000x256),
    TRef.ternary main_call0.v3 main_call0.call0.v1 (.of main_v4) main_call0.call0.v2 select,
    TRef.unary main_call0.call0.v2 main_call0.v5 Host.expm1,
    TRef.nullary main_call0.cst_2 (constant S_ .f32 0x3F800000#32),
    TRef.unary main_call0.cst_2 main_call0.v6 (broadcastInDim S10000x256 ![] bcast_S_S10000x256),
    TRef.binary main_call0.v6 main_call0.v5 main_call0.v7 mulf,
    TRef.ternary main_call0.v1 (.of main_v4) main_call0.v7 main_call0.call1.v0 select,
    binary main_v5 main_arg4 main_v6 ((fun l r => Host.dotGeneral dot_S10000x256_S256x16_S10000x16_1_0_0_1_n_n none l r) : (⟨S10000x256, .f32⟩ : BufTy).Contents (Elt F) → (⟨S256x16, .f32⟩ : BufTy).Contents (Elt F) → (⟨S10000x16, .f32⟩ : BufTy).Contents (Elt F)),
    unary main_arg5 main_v7 (broadcastInDim S1x16 ![1] bcast_S16_S1x16_1 : (⟨S16, .f32⟩ : BufTy).Contents (Elt F) → (⟨S1x16, .f32⟩ : BufTy).Contents (Elt F)),
    unary main_v7 main_v8 (broadcastInDim S10000x16 ![0, 1] bcast_S1x16_S10000x16_0_1 : (⟨S1x16, .f32⟩ : BufTy).Contents (Elt F) → (⟨S10000x16, .f32⟩ : BufTy).Contents (Elt F)),
    binary main_v6 main_v8 main_v9 (addf : (⟨S10000x16, .f32⟩ : BufTy).Contents (Elt F) → (⟨S10000x16, .f32⟩ : BufTy).Contents (Elt F) → (⟨S10000x16, .f32⟩ : BufTy).Contents (Elt F)) ]

set_option maxRecDepth 2048 in
/-- @main is that straight line: the private functions' definitions unfolded at their calls, sequencing reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    binary_bufs_sub .., unary_bufs_sub .., unary_bufs_sub .., binary_bufs_sub ..⟩

/-- The hidden layer before the unit: A · (x · W) with the bias b added to every row. -/
def refHidden (x : FVec F S10000x256 .f32) (A : FVec F S10000x10000 .f32) (W : FVec F S256x256 .f32) (b : FVec F S256 .f32) :
    FVec F S10000x256 .f32 :=
  addf (Host.dotGeneral dot_S10000x10000_S10000x256_S10000x256_1_0_0_1_n_n none A
      (Host.dotGeneral dot_S10000x256_S256x256_S10000x256_1_0_0_1_n_n none x W))
    (broadcastInDim S10000x256 ![0, 1] bcast_S1x256_S10000x256_0_1 (broadcastInDim S1x256 ![1] bcast_S256_S1x256_1 b))

/-- The exponential linear unit as the reference spells it, on a whole array. -/
def refElu (h : FVec F S10000x256 .f32) : FVec F S10000x256 .f32 :=
  select (cmpf .ogt h (broadcastInDim S10000x256 ![] bcast_S_S10000x256 (constant S_ .f32 0x00000000#32))) h
    (mulf (broadcastInDim S10000x256 ![] bcast_S_S10000x256 (constant S_ .f32 0x3F800000#32))
      (Host.expm1 (select (cmpf .ogt h (broadcastInDim S10000x256 ![] bcast_S_S10000x256 (constant S_ .f32 0x00000000#32)))
        (broadcastInDim S10000x256 ![] bcast_S_S10000x256 (id (constant S_ .f32 0x00000000#32))) h)))

/-- The reference's result as one function of its six argument arrays. -/
def refOut (x : FVec F S10000x256 .f32) (A : FVec F S10000x10000 .f32) (W : FVec F S256x256 .f32) (b : FVec F S256 .f32)
    (Wf : FVec F S256x16 .f32) (bf : FVec F S16 .f32) : FVec F S10000x16 .f32 :=
  addf (Host.dotGeneral dot_S10000x256_S256x16_S10000x16_1_0_0_1_n_n none (refElu (refHidden x A W b)) Wf)
    (broadcastInDim S10000x16 ![0, 1] bcast_S1x16_S10000x16_0_1 (broadcastInDim S1x16 ![1] bcast_S16_S1x16_1 bf))

set_option maxHeartbeats 1000000 in
/-- On every device, from any memory with zero counters: every weakly fair execution of @main terminates with the
    result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v9).trans (by after_results_simp; rfl),
      (h c main_arg0).trans (by after_results),
      (h c main_arg1).trans (by after_results),
      (h c main_arg2).trans (by after_results),
      (h c main_arg3).trans (by after_results),
      (h c main_arg4).trans (by after_results),
      (h c main_arg5).trans (by after_results)⟩)
    (run_seq scopedRefs_eq scopedSems_eq defs main (fun _ => ops) main_eq (fun _ => ops_sub) m ρ)

end Cert.ReferenceIdeal.RefRun

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«153492_g15805479649401_cont_sun_c4_349_38_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.LibAffineRows.lean ====
/-
  A dense layer applied to a block of rows, against the same layer applied to the whole array, on the extended reals.

  Let `A` be an `M×K` array, `W` a `K×N` weight and `b` a bias vector of length `N`. A kernel that tiles the rows of
  `A` computes, on a `B×K` block `x` whose row `p` is row `P` of `A`, the product `x · W` on the vector unit from the zero
  accumulator and adds the bias laid out as one row `[1, N]` and broadcast over the block's rows; the host computes the
  one product `A · W` and adds the bias broadcast over all rows. Entry `(p, q)` of the first is entry `(P, q)` of the
  second: both are `∑ k, A (P, k) * W (k, q) + b q`, the same sum term by term, so no finiteness is asked of any entry
  and the operands' float formats do not matter. Also here: the two spellings of "a vector as a row, repeated down the
  rows" read at an entry (a shape cast to `[1, N]` then a row broadcast; two `broadcast_in_dim`), and the rectifier
  `max (·, 0)` with its zero spelt as a splat scalar on one side and a broadcast rank-0 constant on the other.
-/
import proofs.«153492_g15805479649401_cont_sun_c4_349_38_alg».proof.Proof.LibRowBlock
import Idealize.ShloMosaic.Lib.ValueLayout
import Idealize.ShloMosaic.Lib.Pipeline.Value

noncomputable section

namespace Cert.Lib.AffineRows

open Idealize.ShloMosaic Idealize.ShloMosaic.ValueIdx

variable {α : Type}

/-- A vector `[N]` cast to one row `[1, N]` and broadcast over `B` rows reads, at `(p, j)`, the vector at `j`. -/
theorem castRow_apply {B N : ℕ} (b : (⟨1, ![N]⟩ : Shape).Idx → α) (h1 : (⟨1, ![N]⟩ : Shape).ShapeCasts ⟨2, ![1, N]⟩)
    (h2 : (⟨2, ![1, N]⟩ : Shape).Broadcasts ⟨2, ![B, N]⟩) (p : Fin B) (j : Fin N) :
    broadcastTo ⟨2, ![B, N]⟩ (shapeCast ⟨2, ![1, N]⟩ b h1) h2 (ix2 p j) = b (ix1 j) :=
  (broadcastTo_1b_ab_apply _ h2 p j).trans (shapeCast_a_1a_apply b h1 0 j)

/-- A vector `[N]` put on axis 1 of `[1, N]` and that row put on both axes of `[M, N]` reads, at `(P, j)`, the vector at `j`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (P : Fin M) (j : Fin N) :
    broadcastInDim ⟨2, ![M, N]⟩ ![0, 1] h2 (broadcastInDim ⟨2, ![1, N]⟩ ![1] h1 b) (ix2 P j) = b (ix1 j) := by
  have hj : j.val = if N = 1 then 0 else j.val := by
    split
    · have := j.isLt; omega
    · rfl
  refine (broadcastInDim_apply _ h2 _ (ix2 P j) (ix2 (0 : Fin 1) j) fun a => ?_).trans
    (broadcastInDim_apply _ h1 b (ix2 (0 : Fin 1) j) (ix1 j) fun a => ?_)
  · match a with
    | ⟨0, _⟩ => rfl
    | ⟨1, _⟩ => exact hj
  · match a with
    | ⟨0, _⟩ => exact hj

/-- One dense layer on a block of rows is, row for row, the layer on the whole array. -/
theorem layer_row {M K N B : ℕ} {φ₁ φ₂ ψ₁ ψ₂ : FTy} (prec prec' : Option ContractPrecision)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (bk : FVec Ideal ⟨2, ![B, N]⟩ .f32) (bR : FVec Ideal ⟨2, ![M, N]⟩ .f32) (P : Fin M) (p : Fin B) (q : Fin N)
    (hx : ∀ k : Fin K, (x (ix2 p k) : EReal) = A (ix2 P k)) (hw : ∀ k : Fin K, (w (ix2 k q) : EReal) = W (ix2 k q))
    (hb : (bk (ix2 p q) : EReal) = bR (ix2 P q)) :
    addf (matmul (DotDims.plain B K N) prec x w (constant ⟨2, ![B, N]⟩ .f32 0x00000000#32)) bk (ix2 p q)
      = addf (Host.dotGeneral (DotDims.plain M K N) prec' A W) bR (ix2 P q) := by
  show FloatOps.addf _ _ = FloatOps.addf _ _
  rw [hb]
  exact congrArg (FloatOps.addf · _) (Cert.Lib.RowBlock.matmul_eq_dotGeneral prec prec' .single A W x w P p q hx hw)

/-- The rectifier at an entry: the zero a splat scalar on one side, a broadcast rank-0 constant on the other. -/
theorem relu_row {s t : Shape} (u : FVec Ideal s .f32) (v : FVec Ideal t .f32) (i : s.Idx) (j : t.Idx)
    (hbc : (⟨0, ![]⟩ : Shape).BroadcastsInDim t ![]) (huv : (u i : EReal) = v j) :
    maximumf u (broadcast s (Scalar.ofBits .f32 0x00000000#32)) i
      = maximumf v (broadcastInDim t ![] hbc (constant ⟨0, ![]⟩ .f32 0x00000000#32)) j := by
  show FloatOps.maximumf (u i) _ = FloatOps.maximumf (v j) _
  rw [huv]
  rfl

end Cert.Lib.AffineRows

end
-- ==== Proof.RefValue.lean ====
/-
  The reference's result, read at an entry, is the network function `G`.

  The reference's three matrix products are plain sums over the contracted coordinate, its two biases are the bias
  vector at the entry's column (laid on a row, the row repeated down all rows), and its unit is, entry by entry, the
  spelling of elu with an inner selection. So entry (r, q) of its result is
  Σ_j elu(Σ_k A(r,k) · (Σ_l x(k,l) · W(l,j)) + b(j)) · Wf(j,q) + bf(q), for any extended-real arrays.
-/
import proofs.«153492_g15805479649401_cont_sun_c4_349_38_alg».proof.Proof.RefRun
import proofs.«153492_g15805479649401_cont_sun_c4_349_38_alg».proof.Proof.Spec
import proofs.«153492_g15805479649401_cont_sun_c4_349_38_alg».proof.Proof.LibPlainDot
import proofs.«153492_g15805479649401_cont_sun_c4_349_38_alg».proof.Proof.LibAffineRows

noncomputable section

namespace Cert.ReferenceIdeal.RefValue

open Cert.ReferenceIdeal Cert.ReferenceIdeal.Gen Cert.ReferenceIdeal.RefRun Idealize.ShloMosaic Idealize.ShloMosaic.ValueIdx Cert.Gcn

variable (x : FVec Ideal S10000x256 .f32) (A : FVec Ideal S10000x10000 .f32) (W : FVec Ideal S256x256 .f32)
  (b : FVec Ideal S256 .f32) (Wf : FVec Ideal S256x16 .f32) (bf : FVec Ideal S16 .f32)

/-- The hidden layer at an entry: the adjacency's row against the product of the features with the weights, plus the bias. -/
theorem refHidden_apply (r : Fin 10000) (j : Fin 256) :
    (refHidden (F := Ideal) x A W b (ix2 r j) : EReal) = hidR x A W b r j := by
  unfold refHidden hidR
  refine (addf_apply _ _ _).trans (congrArg₂ (· + ·) ?_ ?_)
  · refine (Cert.Lib.PlainDot.dotGeneral_apply none .single A _ r j).trans ?_
    refine Finset.sum_congr rfl fun k _ => congrArg (A (ix2 r k) * ·) ?_
    exact Cert.Lib.PlainDot.dotGeneral_apply none .single x W k j
  · exact Cert.Lib.AffineRows.inDimRow_apply b bcast_S256_S1x256_1 bcast_S1x256_S10000x256_0_1 r j

/-- The reference's unit at an entry is elu in the spelling with an inner selection. -/
theorem refElu_apply (h : FVec Ideal S10000x256 .f32) (i : S10000x256.Idx) :
    (refElu (F := Ideal) h i : EReal) = eluSel (h i) := rfl

/-- The reference's result is `G` of its six arrays. -/
theorem refOut_eq : (refOut (F := Ideal) x A W b Wf bf : S10000x16.Idx → EReal) = G x A W b Wf bf := by
  funext i
  obtain ⟨r, q, rfl⟩ : ∃ (r : Fin 10000) (q : Fin 16), i = ix2 r q := ⟨i 0, i 1, eq_ix2 i⟩
  unfold refOut G
  rw [outOf_apply]
  refine (addf_apply _ _ _).trans (congrArg₂ (· + ·) ?_ ?_)
  · refine (Cert.Lib.PlainDot.dotGeneral_apply none .single _ Wf r q).trans ?_
    refine Finset.sum_congr rfl fun j _ => congrArg (· * Wf (ix2 j q)) ?_
    rw [refElu_apply, refHidden_apply]
  · exact Cert.Lib.AffineRows.inDimRow_apply bf bcast_S16_S1x16_1 bcast_S1x16_S10000x16_0_1 r q

end Cert.ReferenceIdeal.RefValue

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.Finite.lean ====
/-
  From the precondition to real entries.

  The precondition is the conjunction, over the six arguments, of "every |entry| is below +inf". Its value is one bit;
  that bit being 1 makes each conjunct 1, each conjunct is a reduction by "and" over an argument's elementwise test, so
  the test is 1 at every entry, and an extended real whose absolute value is below +inf is a real number. Only the
  features, the adjacency and the first layer's weights are needed: they are the factors of the re-bracketed product.
-/
import proofs.«153492_g15805479649401_cont_sun_c4_349_38_alg».proof.Pre_finite_inputs
import proofs.«153492_g15805479649401_cont_sun_c4_349_38_alg».proof.Proof.Gen.Pre_finite_inputs
import proofs.«153492_g15805479649401_cont_sun_c4_349_38_alg».proof.Proof.LibFiniteEntry
import proofs.«153492_g15805479649401_cont_sun_c4_349_38_alg».proof.Proof.LibMatrixProd
import Idealize.ShloMosaic.Lib.ValueIdx
import Idealize.ShloMosaic.Lib.Affine

noncomputable section

namespace Cert.Gcn.Finite

open Cert.Pre_finite_inputs Cert.Pre_finite_inputs.Facts Idealize.ShloMosaic Cert.Matrices

/-- Under the precondition the features, the adjacency and the first layer's weights are arrays of real numbers. -/
theorem reals (a0 : FVec Ideal S10000x256 .f32) (a1 : FVec Ideal S10000x10000 .f32) (a2 : FVec Ideal S256x256 .f32)
    (a3 : FVec Ideal S256 .f32) (a4 : FVec Ideal S256x16 .f32) (a5 : FVec Ideal S16 .f32)
    (h : Cert.Pre_finite_inputs.fn (F := Ideal) a0 a1 a2 a3 a4 a5 = fun _ => 1#1) :
    IsReal (s := S10000x256) a0 ∧ IsReal (s := S10000x10000) a1 ∧ IsReal (s := S256x256) a2 := by
  have h0 := congrFun h ValueIdx.ix0
  dsimp only [fn, fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, hv12⟩ := IntOp.andi_eq_one.1 h3
  obtain ⟨hv3, hv7⟩ := IntOp.andi_eq_one.1 h4
  refine ⟨fun i => ?_, fun i => ?_, fun i => ?_⟩
  · exact Cert.Lib.FiniteEntry.entry_real bcast_S_S10000x256 a0 i (Host.reduce_andi_all _ _ _ _ ValueIdx.ix0 hv3 i)
  · exact Cert.Lib.FiniteEntry.entry_real bcast_S_S10000x10000 a1 i (Host.reduce_andi_all _ _ _ _ ValueIdx.ix0 hv7 i)
  · exact Cert.Lib.FiniteEntry.entry_real bcast_S_S256x256 a2 i (Host.reduce_andi_all _ _ _ _ ValueIdx.ix0 hv12 i)

end Cert.Gcn.Finite

end
-- ==== Proof.lean ====
/-
  A two-layer graph network, out = elu(A · x · W + b) · Wf + bf, computed two ways.

  The kernel tiles the 10000 rows of the adjacency A into 25 blocks of 400. Its first grid point copies the features x
  into a scratch that every later point reads; each point forms (A_block · x) · W + b, applies elu spelt with a
  minimum, multiplies by Wf, adds bf and writes its 400×16 block. The reference forms A · (x · W) + b for all rows at
  once, applies elu spelt with an inner selection, multiplies by Wf and adds bf.

  On the extended reals every change of float format is the identity and each product is the plain sum over the
  contracted coordinate, so both results are Σ_j elu(hid(r, j)) · Wf(j, q) + bf(q) at (r, q); the two spellings of elu
  agree on every extended real; and the two bracketings of the hidden entry differ by moving W(l, j) across the sum
  over the adjacency's columns, which is distributivity. That holds for real numbers and fails at the infinities, so
  this is where the precondition (every input finite) is used: for x, A and W only.

  The kernel's frame, the reference's frame and the two runs are assembled below from the value modules.
-/
import proofs.«153492_g15805479649401_cont_sun_c4_349_38_alg».proof.Defs
import proofs.«153492_g15805479649401_cont_sun_c4_349_38_alg».proof.Proof.Gen.Kernel
import proofs.«153492_g15805479649401_cont_sun_c4_349_38_alg».proof.Proof.Gen.Kernel.Frame
import proofs.«153492_g15805479649401_cont_sun_c4_349_38_alg».proof.Proof.Gen.KernelIdeal
import proofs.«153492_g15805479649401_cont_sun_c4_349_38_alg».proof.Proof.Gen.KernelIdeal.Frame
import proofs.«153492_g15805479649401_cont_sun_c4_349_38_alg».proof.Proof.Gen.KernelIdeal.Value
import proofs.«153492_g15805479649401_cont_sun_c4_349_38_alg».proof.Proof.Gen.ReferenceIdeal
import proofs.«153492_g15805479649401_cont_sun_c4_349_38_alg».proof.Proof.Gen.Pre_finite_inputs
import proofs.«153492_g15805479649401_cont_sun_c4_349_38_alg».proof.Proof.KernelValue
import proofs.«153492_g15805479649401_cont_sun_c4_349_38_alg».proof.Proof.RefValue
import proofs.«153492_g15805479649401_cont_sun_c4_349_38_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- Nothing of the kernel was rewritten on the way to the extended reals. -/
theorem preserves : Cert.preserves_Kernel_KernelIdeal := trivial

/-- Both programs end at the network function of the arguments: the kernel's bracketing of it is the reference's
    for real-valued features, adjacency and weights. -/
theorem algebraic : Cert.algebraic_KernelIdeal_ReferenceIdeal := by
  intro m ρ m' ρ' hpre hagree
  refine ⟨fun c => Cert.KernelIdeal.KValue.Gk m c, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5⟩ := hagree c
  rw [a0, a1, a2, a3, a4, a5, Cert.ReferenceIdeal.RefValue.refOut_eq]
  obtain ⟨hx, hA, hW⟩ := Cert.Gcn.Finite.reals _ _ _ _ _ _ (hpre c)
  exact (Cert.Gcn.outOf_hidK_eluMin _ _ _ hx hA hW).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
